-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x18x24x24 : Shape := ⟨5, ![1, 512, 18, 24, 24]⟩
abbrev S128x512 : Shape := ⟨2, ![128, 512]⟩
abbrev S128 : Shape := ⟨1, ![128]⟩
abbrev S1x1 : Shape := ⟨2, ![1, 1]⟩
abbrev S_ : Shape := ⟨0, ![]⟩

class Facts : Prop where
  bcast_S_S1x512x18x24x24 : S_.BroadcastsInDim S1x512x18x24x24 (![] : Fin 0 → Fin S1x512x18x24x24.rank)
  reducesTo_S1x512x18x24x24_S_d0_1_2_3_4 : S1x512x18x24x24.ReducesTo [0, 1, 2, 3, 4] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_arg4 : FVec F S128 .f32) (main_arg5 : FVec F S1x1 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  main_v28

def fn {F : FTy → Type} [FloatOps F] (main_arg0 : FVec F S1x512x18x24x24 .f32) (main_arg1 : FVec F S128x512 .f32) (main_arg2 : FVec F S128 .f32) (main_arg3 : FVec F S128x512 .f32) (main_arg4 : FVec F S128 .f32) (main_arg5 : FVec F S1x1 .f32) : IVec S_ 1 :=
  let main_v0 : FVec F S1x512x18x24x24 .f32 := Host.absf main_arg0
  let main_cst : FVec F S_ .f32 := constant S_ .f32 0x7F800000#32
  let main_v1 : FVec F S1x512x18x24x24 .f32 := broadcastInDim S1x512x18x24x24 ![] bcast_S_S1x512x18x24x24 main_cst
  let main_v2 : IVec S1x512x18x24x24 1 := cmpf .olt main_v0 main_v1
  let main_c : IVec S_ 1 := constantI S_ 1 1#1
  let main_v3 : IVec S_ 1 := (fun x v => Host.reduce IntOp.andi x v reducesTo_S1x512x18x24x24_S_d0_1_2_3_4 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_v13 main_v16
-- ==== Kernel.lean ====
abbrev S1x512x18x24x24 : Shape := ⟨5, ![1, 512, 18, 24, 24]⟩
abbrev S128x512 : Shape := ⟨2, ![128, 512]⟩
abbrev S128 : Shape := ⟨1, ![128]⟩
abbrev S1x1 : Shape := ⟨2, ![1, 1]⟩
abbrev S512x10368 : Shape := ⟨2, ![512, 10368]⟩
abbrev S128x1 : Shape := ⟨2, ![128, 1]⟩
abbrev S_ : Shape := ⟨0, ![]⟩
abbrev S9x128x512 : Shape := ⟨3, ![9, 128, 512]⟩
abbrev S512x1152 : Shape := ⟨2, ![512, 1152]⟩
abbrev S1x128x512 : Shape := ⟨3, ![1, 128, 512]⟩
abbrev S128x1152 : Shape := ⟨2, ![128, 1152]⟩

abbrev nBuf : Space → Nat
  | .hbm => 18
  | .vmem => 14
  | .smem => 0
  | _ => 0

abbrev bufTy : (tb : Table) → Fin (tcTables nBuf tb) → BufTy
  | .hbm, ⟨0, _⟩ => ⟨S1x512x18x24x24, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S1x1, .f32⟩
  | .hbm, ⟨6, _⟩ => ⟨S512x10368, .f32⟩
  | .hbm, ⟨7, _⟩ => ⟨S128x1, .f32⟩
  | .hbm, ⟨8, _⟩ => ⟨S128x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S9x128x512, .f32⟩
  | .hbm, ⟨14, _⟩ => ⟨S_, .f32⟩
  | .hbm, ⟨15, _⟩ => ⟨S128x512, .f32⟩
  | .hbm, ⟨16, _⟩ => ⟨S512x10368, .f32⟩
  | .hbm, ⟨17, _⟩ => ⟨S1x512x18x24x24, .f32⟩
  | .local _ .vmem, ⟨0, _⟩ => ⟨S512x1152, .f32⟩
  | .local _ .vmem, ⟨1, _⟩ => ⟨S512x1152, .f32⟩
  | .local _ .vmem, ⟨2, _⟩ => ⟨S128x512, .f32⟩
  | .local _ .vmem, ⟨3, _⟩ => ⟨S128x1, .f32⟩
  | .local _ .vmem, ⟨4, _⟩ => ⟨S1x128x512, .f32⟩
  | .local _ .vmem, ⟨5, _⟩ => ⟨S1x128x512, .f32⟩
  | .local _ .vmem, ⟨6, _⟩ => ⟨S512x1152, .f32⟩
  | .local _ .vmem, ⟨7, _⟩ => ⟨S512x1152, .f32⟩
  | .local _ .vmem, ⟨8, _⟩ => ⟨S128x512, .f32⟩
  | .local _ .vmem, ⟨9, _⟩ => ⟨S128x1, .f32⟩
  | .local _ .vmem, ⟨10, _⟩ => ⟨S128x512, .f32⟩
  | .local _ .vmem, ⟨11, _⟩ => ⟨S1x1, .f32⟩
  | .local _ .vmem, ⟨12, _⟩ => ⟨S512x1152, .f32⟩
  | .local _ .vmem, ⟨13, _⟩ => ⟨S512x1152, .f32⟩
  | _, _ => ⟨S1x512x18x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![9], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x1152 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1152 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S1x512x18x24x24_S512x10368 : S1x512x18x24x24.ShapeCasts S512x10368
  shapeCasts_S128_S128x1 : S128.ShapeCasts S128x1
  shapeCasts_S1x1_S_ : S1x1.ShapeCasts S_
  shapeCasts_S_S1x1 : S_.ShapeCasts S1x1
  inb_S512x1152_S512x1152_0_0 : ∀ a, (![0, 0] : Fin 2 → Nat) a + S512x1152.size a ≤ S512x1152.size a
  h_S512x1152 : 0 < S512x1152.numel
  shapeCasts_S512x1152_S512x1152 : S512x1152.ShapeCasts S512x1152
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x1152 : S128x1.Broadcasts S128x1152
  shapeCasts_S128x512_S1x128x512 : S128x512.ShapeCasts S1x128x512
  inb_S1x128x512_S1x128x512_0_0_0 : ∀ a, (![0, 0, 0] : Fin 3 → Nat) a + S1x128x512.size a ≤ S1x128x512.size a
  h_S1x128x512 : 0 < S1x128x512.numel
  reducesTo_S9x128x512_S128x512_d0 : S9x128x512.ReducesTo [0] S128x512
  h_S_ : 0 < S_.numel
  shapeCasts_S128x512_S128x512 : S128x512.ShapeCasts S128x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S512x10368_S1x512x18x24x24 : S512x10368.ShapeCasts S1x512x18x24x24
  dot_S128x512_S512x1152_S128x1152_1_0_0_1_n_n_wf : DotDims.WF S128x512 S512x1152 S128x1152 [1] [0] [0] [1] [] []
  dot_S128x1152_S512x1152_S128x512_1_1_0_0_n_n_wf : DotDims.WF S128x1152 S512x1152 S128x512 [1] [1] [0] [0] [] []
  dot_S128x512_S128x1152_S512x1152_0_0_1_1_n_n_wf : DotDims.WF S128x512 S128x1152 S512x1152 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1152.size a ≤ S512x10368.size a
  hwx0_0 : ∀ i : grid0.Coords, EltTy.bits .f32 = 32 ∨ (Rect.block (s := S512x10368) S512x1152.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S9x128x512.size a
  hwx0_3 : ∀ i : grid0.Coords, EltTy.bits .f32 = 32 ∨ (Rect.block (s := S9x128x512) S1x128x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1152.size a ≤ S512x10368.size a
  hwx1_0 : ∀ i : grid1.Coords, EltTy.bits .f32 = 32 ∨ (Rect.block (s := S512x10368) S512x1152.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x512.size a
  hwx1_3 : ∀ i : grid1.Coords, EltTy.bits .f32 = 32 ∨ (Rect.block (s := S128x512) S128x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1152.size a ≤ S512x10368.size a
  hwx1_5 : ∀ i : grid1.Coords, EltTy.bits .f32 = 32 ∨ (Rect.block (s := S512x10368) S512x1152.size (cc1_transform_5 i) (hinb1_5 i)).WholeWords (EltTy.packing .f32)

variable [Facts₀]

def dot_S128x512_S512x1152_S128x1152_1_0_0_1_n_n : DotDims S128x512 S512x1152 S128x1152 where
  lhsContracting := [1]
  rhsContracting := [0]
  lhsNonContracting := [0]
  rhsNonContracting := [1]
  lhsBatch := []
  rhsBatch := []
  wf := dot_S128x512_S512x1152_S128x1152_1_0_0_1_n_n_wf
def dot_S128x1152_S512x1152_S128x512_1_1_0_0_n_n : DotDims S128x1152 S512x1152 S128x512 where
  lhsContracting := [1]
  rhsContracting := [1]
  lhsNonContracting := [0]
  rhsNonContracting := [0]
  lhsBatch := []
  rhsBatch := []
  wf := dot_S128x1152_S512x1152_S128x512_1_1_0_0_n_n_wf
def dot_S128x512_S128x1152_S512x1152_0_0_1_1_n_n : DotDims S128x512 S128x1152 S512x1152 where
  lhsContracting := [0]
  rhsContracting := [0]
  lhsNonContracting := [1]
  rhsNonContracting := [1]
  lhsBatch := []
  rhsBatch := []
  wf := dot_S128x512_S128x1152_S512x1152_0_0_1_1_n_n_wf

abbrev win0_0 : Pipeline.Window sig grid0 :=
  Pipeline.Window.ofSpec (Memref.whole main_v0) S512x1152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1152.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S128x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S512x1152.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S1x512x18x24x24 : Shape := ⟨5, ![1, 512, 18, 24, 24]⟩
abbrev S128x512 : Shape := ⟨2, ![128, 512]⟩
abbrev S128 : Shape := ⟨1, ![128]⟩
abbrev S1x1 : Shape := ⟨2, ![1, 1]⟩
abbrev S512x10368 : Shape := ⟨2, ![512, 10368]⟩
abbrev S128x10368 : Shape := ⟨2, ![128, 10368]⟩
abbrev S128x1 : Shape := ⟨2, ![128, 1]⟩
abbrev S10368x128 : Shape := ⟨2, ![10368, 128]⟩
abbrev S10368x512 : Shape := ⟨2, ![10368, 512]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1x512x18x24x24, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S1x1, .f32⟩
  | .hbm, ⟨6, _⟩ => ⟨S512x10368, .f32⟩
  | .hbm, ⟨7, _⟩ => ⟨S128x10368, .f32⟩
  | .hbm, ⟨8, _⟩ => ⟨S128x1, .f32⟩
  | .hbm, ⟨9, _⟩ => ⟨S128x10368, .f32⟩
  | .hbm, ⟨10, _⟩ => ⟨S128x10368, .f32⟩
  | .hbm, ⟨11, _⟩ => ⟨S10368x128, .f32⟩
  | .hbm, ⟨12, _⟩ => ⟨S128x10368, .f32⟩
  | .hbm, ⟨13, _⟩ => ⟨S128x1, .f32⟩
  | .hbm, ⟨14, _⟩ => ⟨S128x10368, .f32⟩
  | .hbm, ⟨15, _⟩ => ⟨S128x10368, .f32⟩
  | .hbm, ⟨16, _⟩ => ⟨S10368x512, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S128x512, .f32⟩
  | .hbm, ⟨21, _⟩ => ⟨S10368x512, .f32⟩
  | .hbm, ⟨22, _⟩ => ⟨S10368x512, .f32⟩
  | .hbm, ⟨23, _⟩ => ⟨S10368x512, .f32⟩
  | .hbm, ⟨24, _⟩ => ⟨S512x10368, .f32⟩
  | .hbm, ⟨25, _⟩ => ⟨S1x512x18x24x24, .f32⟩
  | .hbm, ⟨26, _⟩ => ⟨S1x512x18x24x24, .f32⟩
  | _, _ => ⟨S1x512x18x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]

class Facts₀ : Prop where
  shapeCasts_S1x512x18x24x24_S512x10368 : S1x512x18x24x24.ShapeCasts S512x10368
  bcast_S128_S128x1_0 : S128.BroadcastsInDim S128x1 (![0] : Fin 1 → Fin S128x1.rank)
  bcast_S128x1_S128x10368_0_1 : S128x1.BroadcastsInDim S128x10368 (![0, 1] : Fin 2 → Fin S128x10368.rank)
  transposes_S128x10368_S10368x128_1_0 : S128x10368.Transposes [1, 0] S10368x128
  transposes_S512x10368_S10368x512_1_0 : S512x10368.Transposes [1, 0] S10368x512
  shapeCasts_S1x1_S_ : S1x1.ShapeCasts S_
  bcast_S_S10368x512 : S_.BroadcastsInDim S10368x512 (![] : Fin 0 → Fin S10368x512.rank)
  transposes_S10368x512_S512x10368_1_0 : S10368x512.Transposes [1, 0] S512x10368
  shapeCasts_S512x10368_S1x512x18x24x24 : S512x10368.ShapeCasts S1x512x18x24x24
  dot_S128x512_S512x10368_S128x10368_1_0_0_1_n_n_wf : DotDims.WF S128x512 S512x10368 S128x10368 [1] [0] [0] [1] [] []
  dot_S128x10368_S10368x512_S128x512_1_0_0_1_n_n_wf : DotDims.WF S128x10368 S10368x512 S128x512 [1] [0] [0] [1] [] []
  dot_S10368x128_S128x512_S10368x512_1_0_0_1_n_n_wf : DotDims.WF S10368x128 S128x512 S10368x512 [1] [0] [0] [1] [] []

variable [Facts₀]

def dot_S128x512_S512x10368_S128x10368_1_0_0_1_n_n : DotDims S128x512 S512x10368 S128x10368 where
  lhsContracting := [1]
  rhsContracting := [0]
  lhsNonContracting := [0]
  rhsNonContracting := [1]
  lhsBatch := []
  rhsBatch := []
  wf := dot_S128x512_S512x10368_S128x10368_1_0_0_1_n_n_wf
def dot_S128x10368_S10368x512_S128x512_1_0_0_1_n_n : DotDims S128x10368 S10368x512 S128x512 where
  lhsContracting := [1]
  rhsContracting := [0]
  lhsNonContracting := [0]
  rhsNonContracting := [1]
  lhsBatch := []
  rhsBatch := []
  wf := dot_S128x10368_S10368x512_S128x512_1_0_0_1_n_n_wf
def dot_S10368x128_S128x512_S10368x512_1_0_0_1_n_n : DotDims S10368x128 S128x512 S10368x512 where
  lhsContracting := [1]
  rhsContracting := [0]
  lhsNonContracting := [0]
  rhsNonContracting := [1]
  lhsBatch := []
  rhsBatch := []
  wf := dot_S10368x128_S128x512_S10368x512_1_0_0_1_n_n_wf

class Facts : Prop extends Facts₀ where

variable [Facts]
-- ==== Proof.KernelRun.lean ====
/-
  The idealized kernel's run with its RESULT named.

  The program is five stretches: host reshapes and the scale's quotient; the first pallas_call (nine independent
  partial key-value summaries, one per chunk of 1152 positions); the host's sum of the nine partials; the second
  pallas_call (the projected queries against the summed summary, scaled, added to the input chunk by chunk); and the
  host's reshape back to the five-axis layout. The buffer contents at the four boundaries between them are a fold from
  the launch memory. Here the run is stated with the result buffer at the last boundary's contents, and those contents
  are walked back, stretch by stretch, to the two pallas_calls' output arrays and the argument arrays.
-/
import proofs.«114354_j57260503990846_2_alg».proof.Proof.Gen.KernelIdeal.Frame
import Idealize.ShloMosaic.Lib.StableHlo.Run

set_option maxRecDepth 16384

noncomputable section

namespace Cert.KernelIdeal.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents, and the six argument arrays end as launched. -/
theorem run_result : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Boundary

end
-- ==== Proof.MatmulRead.lean ====
/-
  The three matrix products of the two kernel bodies, read at an output index as plain sums over the contracted
  coordinate. At the ideal values a product into a zero accumulator is the sum, over the contraction index, of
  the operands' products; the operand indices at output index (a, b) and contraction coordinate k are spelt out by
  coordinates: rows by columns (h, k)(k, t); rows by rows (h, t)(c, t); columns by columns (h, c)(h, t).
-/
import proofs.«114354_j57260503990846_2_alg».proof.Proof.Gen.KernelIdeal
import Idealize.ShloMosaic.PureOps.Ideal.Laws
import Idealize.ShloMosaic.Lib.ValueIdx

noncomputable section

namespace Cert.KernelIdeal.Products

open Idealize.ShloMosaic Idealize.ShloMosaic.ValueIdx Cert.KernelIdeal

theorem rc_l0 (i : S128x1152.Idx) (q : dot_S128x512_S512x1152_S128x1152_1_0_0_1_n_n.contr.Idx) :
    (dot_S128x512_S512x1152_S128x1152_1_0_0_1_n_n.lhsIdx i q 0).val = (i 0).val := by
  unfold DotDims.lhsIdx
  rw [dif_neg (show ¬(0 : Fin S128x512.rank) ∈ dot_S128x512_S512x1152_S128x1152_1_0_0_1_n_n.lhsBatch by decide), dif_pos (show (0 : Fin S128x512.rank) ∈ dot_S128x512_S512x1152_S128x1152_1_0_0_1_n_n.lhsNonContracting by decide)]
  rfl
theorem rc_l1 (i : S128x1152.Idx) (q : dot_S128x512_S512x1152_S128x1152_1_0_0_1_n_n.contr.Idx) :
    (dot_S128x512_S512x1152_S128x1152_1_0_0_1_n_n.lhsIdx i q 1).val = (q ⟨0, by decide⟩).val :=
  dot_S128x512_S512x1152_S128x1152_1_0_0_1_n_n.lhsIdx_val_of_single rfl i q
theorem rc_r1 (i : S128x1152.Idx) (q : dot_S128x512_S512x1152_S128x1152_1_0_0_1_n_n.contr.Idx) :
    (dot_S128x512_S512x1152_S128x1152_1_0_0_1_n_n.rhsIdx i q 1).val = (i 1).val := by
  unfold DotDims.rhsIdx
  rw [dif_neg (show ¬(1 : Fin S512x1152.rank) ∈ dot_S128x512_S512x1152_S128x1152_1_0_0_1_n_n.rhsBatch by decide), dif_pos (show (1 : Fin S512x1152.rank) ∈ dot_S128x512_S512x1152_S128x1152_1_0_0_1_n_n.rhsNonContracting by decide)]
  rfl
theorem rc_r0 (i : S128x1152.Idx) (q : dot_S128x512_S512x1152_S128x1152_1_0_0_1_n_n.contr.Idx) :
    (dot_S128x512_S512x1152_S128x1152_1_0_0_1_n_n.rhsIdx i q 0).val = (q ⟨0, by decide⟩).val :=
  dot_S128x512_S512x1152_S128x1152_1_0_0_1_n_n.rhsIdx_val_of_single rfl i q

/-- (W X)(h, t): a [128,512] by [512,1152] product, the left operand's columns against the right operand's rows. -/
theorem matmul_rows_cols (l : FVec Ideal S128x512 .bf16) (r : FVec Ideal S512x1152 .bf16) (h : Fin 128) (t : Fin 1152) :
    matmul (F := Ideal) dot_S128x512_S512x1152_S128x1152_1_0_0_1_n_n none l r (constant S128x1152 .f32 0x00000000#32) (ix2 h t)
      = ∑ k : Fin 512, l (ix2 h k) * r (ix2 k t) := by
  simp only [matmul]
  rw [Ideal.matmul_constant_zero_apply, ← Equiv.sum_comp (contrEquiv1 dot_S128x512_S512x1152_S128x1152_1_0_0_1_n_n 512 rfl rfl).symm]
  refine Finset.sum_congr rfl fun k _ => ?_
  have hk := contrEquiv1_symm_val dot_S128x512_S512x1152_S128x1152_1_0_0_1_n_n 512 rfl rfl k
  have el : dot_S128x512_S512x1152_S128x1152_1_0_0_1_n_n.lhsIdx (ix2 h t) ((contrEquiv1 dot_S128x512_S512x1152_S128x1152_1_0_0_1_n_n 512 rfl rfl).symm k) = ix2 h k := funext fun a => Fin.ext (by
    match a with
    | ⟨0, _⟩ => exact rc_l0 _ _
    | ⟨1, _⟩ => exact (rc_l1 _ _).trans hk)
  have er : dot_S128x512_S512x1152_S128x1152_1_0_0_1_n_n.rhsIdx (ix2 h t) ((contrEquiv1 dot_S128x512_S512x1152_S128x1152_1_0_0_1_n_n 512 rfl rfl).symm k) = ix2 k t := funext fun a => Fin.ext (by
    match a with
    | ⟨0, _⟩ => exact (rc_r0 _ _).trans hk
    | ⟨1, _⟩ => exact rc_r1 _ _)
  rw [el, er]

theorem rr_l0 (i : S128x512.Idx) (q : dot_S128x1152_S512x1152_S128x512_1_1_0_0_n_n.contr.Idx) :
    (dot_S128x1152_S512x1152_S128x512_1_1_0_0_n_n.lhsIdx i q 0).val = (i 0).val := by
  unfold DotDims.lhsIdx
  rw [dif_neg (show ¬(0 : Fin S128x1152.rank) ∈ dot_S128x1152_S512x1152_S128x512_1_1_0_0_n_n.lhsBatch by decide), dif_pos (show (0 : Fin S128x1152.rank) ∈ dot_S128x1152_S512x1152_S128x512_1_1_0_0_n_n.lhsNonContracting by decide)]
  rfl
theorem rr_l1 (i : S128x512.Idx) (q : dot_S128x1152_S512x1152_S128x512_1_1_0_0_n_n.contr.Idx) :
    (dot_S128x1152_S512x1152_S128x512_1_1_0_0_n_n.lhsIdx i q 1).val = (q ⟨0, by decide⟩).val :=
  dot_S128x1152_S512x1152_S128x512_1_1_0_0_n_n.lhsIdx_val_of_single rfl i q
theorem rr_r0 (i : S128x512.Idx) (q : dot_S128x1152_S512x1152_S128x512_1_1_0_0_n_n.contr.Idx) :
    (dot_S128x1152_S512x1152_S128x512_1_1_0_0_n_n.rhsIdx i q 0).val = (i 1).val := by
  unfold DotDims.rhsIdx
  rw [dif_neg (show ¬(0 : Fin S512x1152.rank) ∈ dot_S128x1152_S512x1152_S128x512_1_1_0_0_n_n.rhsBatch by decide), dif_pos (show (0 : Fin S512x1152.rank) ∈ dot_S128x1152_S512x1152_S128x512_1_1_0_0_n_n.rhsNonContracting by decide)]
  rfl
theorem rr_r1 (i : S128x512.Idx) (q : dot_S128x1152_S512x1152_S128x512_1_1_0_0_n_n.contr.Idx) :
    (dot_S128x1152_S512x1152_S128x512_1_1_0_0_n_n.rhsIdx i q 1).val = (q ⟨0, by decide⟩).val :=
  dot_S128x1152_S512x1152_S128x512_1_1_0_0_n_n.rhsIdx_val_of_single rfl i q

/-- (A B^T)(h, c): a [128,1152] by [512,1152] product, both operands contracted along their second axis. -/
theorem matmul_rows_rows (l : FVec Ideal S128x1152 .bf16) (r : FVec Ideal S512x1152 .bf16) (h : Fin 128) (c : Fin 512) :
    matmul (F := Ideal) dot_S128x1152_S512x1152_S128x512_1_1_0_0_n_n none l r (constant S128x512 .f32 0x00000000#32) (ix2 h c)
      = ∑ t : Fin 1152, l (ix2 h t) * r (ix2 c t) := by
  simp only [matmul]
  rw [Ideal.matmul_constant_zero_apply, ← Equiv.sum_comp (contrEquiv1 dot_S128x1152_S512x1152_S128x512_1_1_0_0_n_n 1152 rfl rfl).symm]
  refine Finset.sum_congr rfl fun t _ => ?_
  have hk := contrEquiv1_symm_val dot_S128x1152_S512x1152_S128x512_1_1_0_0_n_n 1152 rfl rfl t
  have el : dot_S128x1152_S512x1152_S128x512_1_1_0_0_n_n.lhsIdx (ix2 h c) ((contrEquiv1 dot_S128x1152_S512x1152_S128x512_1_1_0_0_n_n 1152 rfl rfl).symm t) = ix2 h t := funext fun a => Fin.ext (by
    match a with
    | ⟨0, _⟩ => exact rr_l0 _ _
    | ⟨1, _⟩ => exact (rr_l1 _ _).trans hk)
  have er : dot_S128x1152_S512x1152_S128x512_1_1_0_0_n_n.rhsIdx (ix2 h c) ((contrEquiv1 dot_S128x1152_S512x1152_S128x512_1_1_0_0_n_n 1152 rfl rfl).symm t) = ix2 c t := funext fun a => Fin.ext (by
    match a with
    | ⟨0, _⟩ => exact rr_r0 _ _
    | ⟨1, _⟩ => exact (rr_r1 _ _).trans hk)
  rw [el, er]

theorem cc_l1 (i : S512x1152.Idx) (q : dot_S128x512_S128x1152_S512x1152_0_0_1_1_n_n.contr.Idx) :
    (dot_S128x512_S128x1152_S512x1152_0_0_1_1_n_n.lhsIdx i q 1).val = (i 0).val := by
  unfold DotDims.lhsIdx
  rw [dif_neg (show ¬(1 : Fin S128x512.rank) ∈ dot_S128x512_S128x1152_S512x1152_0_0_1_1_n_n.lhsBatch by decide), dif_pos (show (1 : Fin S128x512.rank) ∈ dot_S128x512_S128x1152_S512x1152_0_0_1_1_n_n.lhsNonContracting by decide)]
  rfl
theorem cc_l0 (i : S512x1152.Idx) (q : dot_S128x512_S128x1152_S512x1152_0_0_1_1_n_n.contr.Idx) :
    (dot_S128x512_S128x1152_S512x1152_0_0_1_1_n_n.lhsIdx i q 0).val = (q ⟨0, by decide⟩).val :=
  dot_S128x512_S128x1152_S512x1152_0_0_1_1_n_n.lhsIdx_val_of_single rfl i q
theorem cc_r1 (i : S512x1152.Idx) (q : dot_S128x512_S128x1152_S512x1152_0_0_1_1_n_n.contr.Idx) :
    (dot_S128x512_S128x1152_S512x1152_0_0_1_1_n_n.rhsIdx i q 1).val = (i 1).val := by
  unfold DotDims.rhsIdx
  rw [dif_neg (show ¬(1 : Fin S128x1152.rank) ∈ dot_S128x512_S128x1152_S512x1152_0_0_1_1_n_n.rhsBatch by decide), dif_pos (show (1 : Fin S128x1152.rank) ∈ dot_S128x512_S128x1152_S512x1152_0_0_1_1_n_n.rhsNonContracting by decide)]
  rfl
theorem cc_r0 (i : S512x1152.Idx) (q : dot_S128x512_S128x1152_S512x1152_0_0_1_1_n_n.contr.Idx) :
    (dot_S128x512_S128x1152_S512x1152_0_0_1_1_n_n.rhsIdx i q 0).val = (q ⟨0, by decide⟩).val :=
  dot_S128x512_S128x1152_S512x1152_0_0_1_1_n_n.rhsIdx_val_of_single rfl i q

/-- (A^T B)(c, t): a [128,512] by [128,1152] product, both operands contracted along their first axis. -/
theorem matmul_cols_cols (l : FVec Ideal S128x512 .bf16) (r : FVec Ideal S128x1152 .bf16) (c : Fin 512) (t : Fin 1152) :
    matmul (F := Ideal) dot_S128x512_S128x1152_S512x1152_0_0_1_1_n_n none l r (constant S512x1152 .f32 0x00000000#32) (ix2 c t)
      = ∑ h : Fin 128, l (ix2 h c) * r (ix2 h t) := by
  simp only [matmul]
  rw [Ideal.matmul_constant_zero_apply, ← Equiv.sum_comp (contrEquiv1 dot_S128x512_S128x1152_S512x1152_0_0_1_1_n_n 128 rfl rfl).symm]
  refine Finset.sum_congr rfl fun h _ => ?_
  have hk := contrEquiv1_symm_val dot_S128x512_S128x1152_S512x1152_0_0_1_1_n_n 128 rfl rfl h
  have el : dot_S128x512_S128x1152_S512x1152_0_0_1_1_n_n.lhsIdx (ix2 c t) ((contrEquiv1 dot_S128x512_S128x1152_S512x1152_0_0_1_1_n_n 128 rfl rfl).symm h) = ix2 h c := funext fun a => Fin.ext (by
    match a with
    | ⟨0, _⟩ => exact (cc_l0 _ _).trans hk
    | ⟨1, _⟩ => exact cc_l1 _ _)
  have er : dot_S128x512_S128x1152_S512x1152_0_0_1_1_n_n.rhsIdx (ix2 c t) ((contrEquiv1 dot_S128x512_S128x1152_S512x1152_0_0_1_1_n_n 128 rfl rfl).symm h) = ix2 h t := funext fun a => Fin.ext (by
    match a with
    | ⟨0, _⟩ => exact (cc_r0 _ _).trans hk
    | ⟨1, _⟩ => exact cc_r1 _ _)
  rw [el, er]

end Cert.KernelIdeal.Products

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.BodyValues.lean ====
/-
  What each kernel body stores, read at an index, as a function of the blocks it loads.

  First body (one chunk of 1152 positions; X the [512,1152] input chunk, W the [128,512] weight, b the [128,1] bias
  column): entry (h, c) of its [1,128,512] store is the sum over the chunk's positions t of
  ((W X)(h, t) + b(h)) * X(c, t) -- the chunk's key-value summary. Second body (M the summed [128,512] summary,
  s the [1,1] scale): entry (c, t) of its [512,1152] store is X(c, t) + (sum over h of M(h, c) * ((W X)(h, t) + b(h))) * s.
  Roundings to bf16 on the way into a product are the identity at the ideal values.
-/
import proofs.«114354_j57260503990846_2_alg».proof.Proof.Gen.KernelIdeal.Skeleton
import proofs.«114354_j57260503990846_2_alg».proof.Proof.MatmulRead
import proofs.«114354_j57260503990846_2_alg».proof.Proof.LibColumn
import Idealize.ShloMosaic.Lib.Pipeline.Value

noncomputable section

namespace Cert.KernelIdeal.Bodies

open Idealize.ShloMosaic Idealize.ShloMosaic.ValueIdx Cert.KernelIdeal Cert.KernelIdeal.Gen Cert.KernelIdeal.Products

/-- The projected chunk with bias, entry (h, t): the first product plus the bias column broadcast along the positions. -/
theorem projected_apply (x0 : FVec Ideal S512x1152 .f32) (x1 : Vec Ideal S128x512 .f32) (x2 : Vec Ideal S128x1 .f32)
    (h : Fin 128) (t : Fin 1152) :
    (addf (matmul (F := Ideal) dot_S128x512_S512x1152_S128x1152_1_0_0_1_n_n none (truncf .bf16 x1 bitsLt_bf16_f32)
          (truncf .bf16 x0 bitsLt_bf16_f32) (constant S128x1152 .f32 0x00000000#32))
        (broadcastTo S128x1152 (shapeCast S128x1 (shapeCast S128x1 x2 shapeCasts_S128x1_S128x1) shapeCasts_S128x1_S128x1) broadcasts_S128x1_S128x1152)) (ix2 h t)
      = (∑ k : Fin 512, x1 (ix2 h k) * x0 (ix2 k t)) + x2 (ix2 h (0 : Fin 1)) := by
  rw [addf_apply, matmul_rows_cols, Cert.Column.broadcastTo_a1_ab_apply, shapeCast_self, shapeCast_self]
  rfl

/-- The first body's store at (u, h, c), u the unit leading coordinate: the chunk's key-value summary. -/
theorem chunk_payload (x0 : Vec Ideal S512x1152 .f32) (x1 : Vec Ideal S128x512 .f32) (x2 : Vec Ideal S128x1 .f32)
    (u : Fin 1) (h : Fin 128) (c : Fin 512) :
    k0_pay1 (F := Ideal) x0 x1 x2 (ix3 u h c)
      = ∑ t : Fin 1152, ((∑ k : Fin 512, x1 (ix2 h k) * x0 (ix2 k t)) + x2 (ix2 h (0 : Fin 1))) * x0 (ix2 c t) := by
  unfold k0_pay1
  refine (shapeCast_apply _ shapeCasts_S128x512_S1x128x512 (ix3 u h c) (ix2 h c) ?_).trans ?_
  · have hu : u.val = 0 := by omega
    rw [Shape.rowMajor_val_two, Shape.rowMajor_val_three]
    show h.val * 512 + c.val = (u.val * 128 + h.val) * 512 + c.val
    rw [hu]; omega
  rw [matmul_rows_rows]
  refine Finset.sum_congr rfl fun t _ => ?_
  rw [truncf_apply, truncf_apply, projected_apply, shapeCast_self]

/-- The second body's store at (c, t): the input chunk plus the summary against the projected chunk, scaled by the
    one entry of the scale block. -/
theorem mixed_payload (x0 : Vec Ideal S512x1152 .f32) (x1 : Vec Ideal S128x512 .f32) (x2 : Vec Ideal S128x1 .f32)
    (x3 : Vec Ideal S128x512 .f32) (x4 : Vec Ideal S1x1 .f32) (c : Fin 512) (t : Fin 1152) :
    k1_pay1 (F := Ideal) x0 x1 x2 x3 x4 (ix2 c t)
      = x0 (ix2 c t) + (∑ h : Fin 128, x3 (ix2 h c) * ((∑ k : Fin 512, x1 (ix2 h k) * x0 (ix2 k t)) + x2 (ix2 h (0 : Fin 1))))
          * extractAt ![0, 0] x4 inpos_S1x1_p0_0 := by
  unfold k1_pay1
  rw [addf_apply, mulf_apply, broadcast_apply, matmul_cols_cols, shapeCast_self]
  refine congrArg (fun z => x0 (ix2 c t) + z * extractAt ![0, 0] x4 inpos_S1x1_p0_0) (Finset.sum_congr rfl fun h _ => ?_)
  rw [truncf_apply, truncf_apply, projected_apply, shapeCast_self]

end Cert.KernelIdeal.Bodies

end
-- ==== Proof.Summary.lean ====
/-
  The mathematics both programs compute, over the extended reals, with no program in sight.

  The input is a 512 x 10368 matrix X (channels by positions). Two channel projections with bias,
  fi = Wi X + bi and fj = Wj X + bj (each 128 x 10368), a key-value summary M = fj X^T (128 x 512, a sum over all
  10368 positions), and the result X + (fi^T M)^T * s. One program sums the summary over all positions at once; the
  other cuts the positions into nine chunks of 1152, sums each chunk alone, and adds the nine partial sums. Addition
  of extended reals is commutative and associative, so the two groupings agree with no finiteness assumption.
-/
import Idealize.ShloMosaic.PureOps.Ideal
import Idealize.ShloMosaic.Lib.ValueIdx

noncomputable section

namespace Cert.Summary

open Idealize.ShloMosaic Idealize.ShloMosaic.ValueIdx

/-- A matrix of extended reals by its two coordinates. -/
abbrev Mat (a b : Nat) := Fin a → Fin b → EReal

/-- A two-axis array read by coordinates. -/
def mat {a b : Nat} (x : (⟨2, ![a, b]⟩ : Shape).Idx → EReal) : Mat a b := fun p q => x (ix2 p q)

/-- The channel projection with bias: (W X)(h, n) + b(h). -/
def proj (W : Mat 128 512) (b : Fin 128 → EReal) (X : Mat 512 10368) : Mat 128 10368 :=
  fun h n => (∑ k : Fin 512, W h k * X k n) + b h

/-- Position t of chunk i. -/
def pos (i : Fin 9) (t : Fin 1152) : Fin 10368 := ⟨i.val * 1152 + t.val, by have := i.isLt; have := t.isLt; omega⟩

/-- The summary fj X^T over ALL positions. -/
def summary (fj : Mat 128 10368) (X : Mat 512 10368) : Mat 128 512 :=
  fun h c => ∑ n : Fin 10368, fj h n * X c n

/-- The same sum over the positions of chunk i only. -/
def chunkSummary (fj : Mat 128 10368) (X : Mat 512 10368) (i : Fin 9) : Mat 128 512 :=
  fun h c => ∑ t : Fin 1152, fj h (pos i t) * X c (pos i t)

/-- A sum over 10368 positions is the sum over nine chunks of the sums over each chunk's 1152 positions. -/
theorem sum_chunks {M : Type*} [AddCommMonoid M] (g : Fin 10368 → M) :
    ∑ n : Fin 10368, g n = ∑ i : Fin 9, ∑ t : Fin 1152, g (pos i t) := by
  rw [← Equiv.sum_comp (finProdFinEquiv (m := 9) (n := 1152)) g, Fintype.sum_prod_type]
  refine Finset.sum_congr rfl fun i _ => Finset.sum_congr rfl fun t _ => congrArg g (Fin.ext ?_)
  show t.val + 1152 * i.val = i.val * 1152 + t.val
  omega

/-- The whole summary is the sum of the nine chunk summaries. -/
theorem summary_eq_chunks (fj : Mat 128 10368) (X : Mat 512 10368) (h : Fin 128) (c : Fin 512) :
    summary fj X h c = ∑ i : Fin 9, chunkSummary fj X i h c :=
  sum_chunks fun n => fj h n * X c n

/-- The result: the input plus the projected queries against the summary, scaled. -/
def mixed (X : Mat 512 10368) (fi : Mat 128 10368) (M : Mat 128 512) (s : EReal) : Mat 512 10368 :=
  fun c n => X c n + (∑ h : Fin 128, fi h n * M h c) * s

end Cert.Summary

end
-- ==== Proof.FirstCall.lean ====
/-
  The first pallas_call's output array, as one function of the arrays the call finds.

  Grid point t (of nine) loads columns [1152 t, 1152 t + 1152) of the [512,10368] input, the whole weight and the whole
  bias column, and writes slot t of the [9,128,512] output: the key-value summary of chunk t alone. The nine slots
  tile the output, so after the call its entry (i, h, c) is the summary of chunk i at (h, c).
-/
import proofs.«114354_j57260503990846_2_alg».proof.Proof.Gen.KernelIdeal.Frame
import proofs.«114354_j57260503990846_2_alg».proof.Proof.BodyValues
import proofs.«114354_j57260503990846_2_alg».proof.Proof.Summary
import Idealize.ShloMosaic.Lib.Pipeline.Value

set_option maxRecDepth 16384

noncomputable section

namespace Cert.KernelIdeal.FirstCall

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bodies Cert.Summary

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the input window walks the position axis, the weight and bias windows
    stay put, the output window walks the slot axis. -/
theorem idx_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The chunk a grid point works on. -/
def chunk (t : Fin cfg0.N) : Fin 9 := Fin.cast N_0 t

/-- The input block at point t is the columns of chunk t. -/
theorem x_block (c : Dev nD) (t : Fin cfg0.N) (k : Fin 512) (s : Fin 1152) :
    (iblk0 V c 0 t : Vec Ideal S512x1152 .f32) (ix2 k s) = (V c main_v0 : S512x10368.Idx → EReal) (ix2 k (pos (chunk t) s)) := by
  obtain ⟨e0, e1, -⟩ := idx_facts t
  unfold iblk0
  rw [View.read_apply]
  show V c main_v0 _ = V c main_v0 _
  congr 1
  funext a; apply Fin.ext
  match a with
  | ⟨0, _⟩ => show win0_0.index t (0 : Fin 2) * 512 + 1 * k.val = k.val; rw [e0]; omega
  | ⟨1, _⟩ => show win0_0.index t (1 : Fin 2) * 1152 + 1 * s.val = t.val * 1152 + s.val; rw [e1]; omega

/-- The weight block is the whole weight. -/
theorem w_block (c : Dev nD) (t : Fin cfg0.N) (h : Fin 128) (k : Fin 512) :
    (iblk0 V c 1 t : Vec Ideal S128x512 .f32) (ix2 h k) = (V c main_arg3 : S128x512.Idx → EReal) (ix2 h k) := by
  obtain ⟨-, -, e2, e3, -⟩ := idx_facts t
  unfold iblk0
  rw [View.read_apply]
  show V c main_arg3 _ = V c main_arg3 _
  congr 1
  funext a; apply Fin.ext
  match a with
  | ⟨0, _⟩ => show win0_1.index t (0 : Fin 2) * 128 + 1 * h.val = h.val; rw [e2]; omega
  | ⟨1, _⟩ => show win0_1.index t (1 : Fin 2) * 512 + 1 * k.val = k.val; rw [e3]; omega

/-- The bias block is the whole bias column. -/
theorem b_block (c : Dev nD) (t : Fin cfg0.N) (h : Fin 128) (z : Fin 1) :
    (iblk0 V c 2 t : Vec Ideal S128x1 .f32) (ix2 h z) = (V c main_v2 : S128x1.Idx → EReal) (ix2 h z) := by
  obtain ⟨-, -, -, -, e4, e5, -⟩ := idx_facts t
  unfold iblk0
  rw [View.read_apply]
  show V c main_v2 _ = V c main_v2 _
  congr 1
  funext a; apply Fin.ext
  match a with
  | ⟨0, _⟩ => show win0_2.index t (0 : Fin 2) * 128 + 1 * h.val = h.val; rw [e4]; omega
  | ⟨1, _⟩ => show win0_2.index t (1 : Fin 2) * 1 + 1 * z.val = z.val; rw [e5]; omega

/-- The nine chunk summaries as one [9,128,512] array, from the input X, the weight W and the bias column b. -/
def partials (X : S512x10368.Idx → EReal) (W : S128x512.Idx → EReal) (b : S128x1.Idx → EReal) : S9x128x512.Idx → EReal :=
  fun i => chunkSummary (proj (mat W) (fun h => b (ix2 h (0 : Fin 1))) (mat X)) (mat X) (i 0) (i 1) (i 2)

/-- Entry (i, h, c) of the nine chunk summaries, spelt out. -/
theorem partials_apply (X : S512x10368.Idx → EReal) (W : S128x512.Idx → EReal) (b : S128x1.Idx → EReal)
    (i : Fin 9) (h : Fin 128) (c : Fin 512) :
    partials X W b (ix3 i h c)
      = ∑ s : Fin 1152, ((∑ k : Fin 512, W (ix2 h k) * X (ix2 k (pos i s))) + b (ix2 h (0 : Fin 1))) * X (ix2 c (pos i s)) := rfl

/-- What point t writes back is slot t of the nine chunk summaries. -/
theorem flushed_eq (c : Dev nD) (t : Fin cfg0.N) :
    (dat0 V c).flushed 3 t = ((cfg0.win 3).blk t).view.read (Elt Ideal) (partials (V c main_v0) (V c main_arg3) (V c main_v2)) := by
  show (cfg0.win 3).cut (grid0.coords t) ((dat0 V c).after 3 t) = _
  rw [after0_3]
  unfold out0_3
  rw [View.canon_unit_zero hz3]
  simp only [View.ld_unit_zero (S := S512x1152) hz2, View.ld_unit_zero (S := S128x512) hz2, View.ld_unit_zero (S := S128x1) hz2]
  funext j
  obtain ⟨u, h, cc, rfl⟩ : ∃ (u : Fin 1) (h : Fin 128) (cc : Fin 512), j = ix3 u h cc := ⟨j 0, j 1, j 2, eq_ix3 j⟩
  obtain ⟨-, -, -, -, -, -, e6, e7, e8⟩ := idx_facts t
  have hemb : ((cfg0.win 3).blk t).view.emb (ix3 u h cc) = ix3 (chunk t) h cc := by
    funext a; apply Fin.ext
    match a with
    | ⟨0, _⟩ => show win0_3.index t (0 : Fin 3) * 1 + 1 * u.val = t.val; rw [e6]; omega
    | ⟨1, _⟩ => show win0_3.index t (1 : Fin 3) * 128 + 1 * h.val = h.val; rw [e7]; omega
    | ⟨2, _⟩ => show win0_3.index t (2 : Fin 3) * 512 + 1 * cc.val = cc.val; rw [e8]; omega
  show k0_pay1 (iblk0 V c 0 t) (iblk0 V c 1 t) (iblk0 V c 2 t) (ix3 u h cc)
    = partials (V c main_v0) (V c main_arg3) (V c main_v2) (((cfg0.win 3).blk t).view.emb (ix3 u h cc))
  rw [hemb]
  refine (chunk_payload (iblk0 V c 0 t) (iblk0 V c 1 t) (iblk0 V c 2 t) u h cc).trans ?_
  refine Eq.trans ?_ (partials_apply (V c main_v0) (V c main_arg3) (V c main_v2) (chunk t) h cc).symm
  refine Finset.sum_congr rfl fun s _ => ?_
  refine congrArg₂ (· * ·) (congrArg₂ (· + ·) (Finset.sum_congr rfl fun k _ => ?_) (b_block V c t h 0)) (x_block V c t cc s)
  exact congrArg₂ (· * ·) (w_block V c t h k) (x_block V c t k s)

/-- An index of the output is in point t's block iff each coordinate is in the block's range on its axis. -/
theorem mem_blk (t : Fin cfg0.N) (i : S9x128x512.Idx) :
    i ∈ ((cfg0.win 3).blk t).view.set ↔ ∀ a : Fin 3, win0_3.index t a * S1x128x512.size a ≤ (i a).val ∧ (i a).val < win0_3.index t a * S1x128x512.size a + S1x128x512.size a := by
  show i ∈ ((View.whole main_v6).slice (win0_3.rect t)).set ↔ _
  rw [View.set_slice_whole, Rect.mem_set_unit]
  exact Iff.rfl

/-- The output array after the call: the nine chunk summaries (slot i is written by point i, and the slots tile the array). -/
theorem final (c : Dev nD) : (dat0 V c).arrAt 3 cfg0.N = partials (V c main_v0) (V c main_arg3) (V c main_v2) :=
  (dat0 V c).arrAt_eq_of_cover 3 _ (fun t _ => flushed_eq V c t) fun i => by
    have h0 : (i 0).val < 9 := (i 0).isLt
    have h1 : (i 1).val < 128 := (i 1).isLt
    have h2 : (i 2).val < 512 := (i 2).isLt
    refine ⟨Fin.cast N_0.symm ⟨(i 0).val, h0⟩, flush0_3 _, ?_⟩
    rw [mem_blk]
    obtain ⟨-, -, -, -, -, -, e6, e7, e8⟩ := idx_facts (Fin.cast N_0.symm ⟨(i 0).val, h0⟩)
    have e6' : win0_3.index (Fin.cast N_0.symm ⟨(i 0).val, h0⟩) (0 : Fin 3) = (i 0).val := e6
    intro a
    match a with
    | ⟨0, _⟩ => show win0_3.index _ (0 : Fin 3) * 1 ≤ (i 0).val ∧ (i 0).val < win0_3.index _ (0 : Fin 3) * 1 + 1; rw [e6']; omega
    | ⟨1, _⟩ => show win0_3.index _ (1 : Fin 3) * 128 ≤ (i 1).val ∧ (i 1).val < win0_3.index _ (1 : Fin 3) * 128 + 128; rw [e7]; omega
    | ⟨2, _⟩ => show win0_3.index _ (2 : Fin 3) * 512 ≤ (i 2).val ∧ (i 2).val < win0_3.index _ (2 : Fin 3) * 512 + 512; rw [e8]; omega

end Cert.KernelIdeal.FirstCall

end
-- ==== Proof.SecondCall.lean ====
/-
  The second pallas_call's output array, as one function of the arrays the call finds.

  Grid point t (of nine) loads columns [1152 t, 1152 t + 1152) of the [512,10368] input and, whole, the query weight, its
  bias column, the summed [128,512] summary and the [1,1] scale; it writes the same columns of the [512,10368] output:
  the input chunk plus the summary against the projected chunk, scaled. The nine column blocks tile the output.
-/
import proofs.«114354_j57260503990846_2_alg».proof.Proof.Gen.KernelIdeal.Frame
import proofs.«114354_j57260503990846_2_alg».proof.Proof.BodyValues
import proofs.«114354_j57260503990846_2_alg».proof.Proof.Summary
import Idealize.ShloMosaic.Lib.Pipeline.Value

set_option maxRecDepth 16384

noncomputable section

namespace Cert.KernelIdeal.SecondCall

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bodies Cert.Summary

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input and output windows walk the position axis together, the four
    other windows stay put. -/
theorem idx_facts : ∀ t : Fin cfg1.N, win1_0.index t (0 : Fin 2) = 0 ∧ win1_0.index t (1 : Fin 2) = t.val
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val :=
  (by decide +kernel : ∀ t : Fin grid1.N, _)

/-- The chunk a grid point works on. -/
def chunk (t : Fin cfg1.N) : Fin 9 := Fin.cast N_1 t

/-- The input block at point t is the columns of chunk t. -/
theorem x_block (c : Dev nD) (t : Fin cfg1.N) (k : Fin 512) (s : Fin 1152) :
    (iblk1 V c 0 t : Vec Ideal S512x1152 .f32) (ix2 k s) = (V c main_v0 : S512x10368.Idx → EReal) (ix2 k (pos (chunk t) s)) := by
  obtain ⟨e0, e1, -⟩ := idx_facts t
  unfold iblk1
  rw [View.read_apply]
  show V c main_v0 _ = V c main_v0 _
  congr 1
  funext a; apply Fin.ext
  match a with
  | ⟨0, _⟩ => show win1_0.index t (0 : Fin 2) * 512 + 1 * k.val = k.val; rw [e0]; omega
  | ⟨1, _⟩ => show win1_0.index t (1 : Fin 2) * 1152 + 1 * s.val = t.val * 1152 + s.val; rw [e1]; omega

/-- The weight block is the whole query weight. -/
theorem w_block (c : Dev nD) (t : Fin cfg1.N) (h : Fin 128) (k : Fin 512) :
    (iblk1 V c 1 t : Vec Ideal S128x512 .f32) (ix2 h k) = (V c main_arg1 : S128x512.Idx → EReal) (ix2 h k) := by
  obtain ⟨-, -, e2, e3, -⟩ := idx_facts t
  unfold iblk1
  rw [View.read_apply]
  show V c main_arg1 _ = V c main_arg1 _
  congr 1
  funext a; apply Fin.ext
  match a with
  | ⟨0, _⟩ => show win1_1.index t (0 : Fin 2) * 128 + 1 * h.val = h.val; rw [e2]; omega
  | ⟨1, _⟩ => show win1_1.index t (1 : Fin 2) * 512 + 1 * k.val = k.val; rw [e3]; omega

/-- The bias block is the whole bias column. -/
theorem b_block (c : Dev nD) (t : Fin cfg1.N) (h : Fin 128) (z : Fin 1) :
    (iblk1 V c 2 t : Vec Ideal S128x1 .f32) (ix2 h z) = (V c main_v1 : S128x1.Idx → EReal) (ix2 h z) := by
  obtain ⟨-, -, -, -, e4, e5, -⟩ := idx_facts t
  unfold iblk1
  rw [View.read_apply]
  show V c main_v1 _ = V c main_v1 _
  congr 1
  funext a; apply Fin.ext
  match a with
  | ⟨0, _⟩ => show win1_2.index t (0 : Fin 2) * 128 + 1 * h.val = h.val; rw [e4]; omega
  | ⟨1, _⟩ => show win1_2.index t (1 : Fin 2) * 1 + 1 * z.val = z.val; rw [e5]; omega

/-- The summary block is the whole summed summary. -/
theorem m_block (c : Dev nD) (t : Fin cfg1.N) (h : Fin 128) (k : Fin 512) :
    (iblk1 V c 3 t : Vec Ideal S128x512 .f32) (ix2 h k) = (V c main_v7 : S128x512.Idx → EReal) (ix2 h k) := by
  obtain ⟨-, -, -, -, -, -, e6, e7, -⟩ := idx_facts t
  unfold iblk1
  rw [View.read_apply]
  show V c main_v7 _ = V c main_v7 _
  congr 1
  funext a; apply Fin.ext
  match a with
  | ⟨0, _⟩ => show win1_3.index t (0 : Fin 2) * 128 + 1 * h.val = h.val; rw [e6]; omega
  | ⟨1, _⟩ => show win1_3.index t (1 : Fin 2) * 512 + 1 * k.val = k.val; rw [e7]; omega

/-- The scale block's one entry is the scale array's one entry. -/
theorem s_block (c : Dev nD) (t : Fin cfg1.N) :
    extractAt ![0, 0] (iblk1 V c 4 t : Vec Ideal S1x1 .f32) inpos_S1x1_p0_0 = (V c main_v5 : S1x1.Idx → EReal) (ix2 (0 : Fin 1) (0 : Fin 1)) := by
  obtain ⟨-, -, -, -, -, -, -, -, e8, e9, -⟩ := idx_facts t
  unfold extractAt iblk1
  rw [View.read_apply]
  show V c main_v5 _ = V c main_v5 _
  congr 1
  funext a; apply Fin.ext
  match a with
  | ⟨0, _⟩ => show win1_4.index t (0 : Fin 2) * 1 + 1 * 0 = 0; rw [e8]
  | ⟨1, _⟩ => show win1_4.index t (1 : Fin 2) * 1 + 1 * 0 = 0; rw [e9]

/-- The output as one [512,10368] array, from the input X, the query weight W, its bias column b, the summary M and
    the scale s. -/
def outArr (X : S512x10368.Idx → EReal) (W : S128x512.Idx → EReal) (b : S128x1.Idx → EReal) (M : S128x512.Idx → EReal)
    (s : S1x1.Idx → EReal) : S512x10368.Idx → EReal :=
  fun j => mixed (mat X) (proj (mat W) (fun h => b (ix2 h (0 : Fin 1))) (mat X)) (mat M) (s (ix2 (0 : Fin 1) (0 : Fin 1))) (j 0) (j 1)

/-- Entry (c, n) of the output, spelt out. -/
theorem outArr_apply (X : S512x10368.Idx → EReal) (W : S128x512.Idx → EReal) (b : S128x1.Idx → EReal) (M : S128x512.Idx → EReal)
    (s : S1x1.Idx → EReal) (c : Fin 512) (n : Fin 10368) :
    outArr X W b M s (ix2 c n)
      = X (ix2 c n) + (∑ h : Fin 128, ((∑ k : Fin 512, W (ix2 h k) * X (ix2 k n)) + b (ix2 h (0 : Fin 1))) * M (ix2 h c))
          * s (ix2 (0 : Fin 1) (0 : Fin 1)) := rfl

/-- What point t writes back is column block t of the output. -/
theorem flushed_eq (c : Dev nD) (t : Fin cfg1.N) :
    (dat1 V c).flushed 5 t = ((cfg1.win 5).blk t).view.read (Elt Ideal)
      (outArr (V c main_v0) (V c main_arg1) (V c main_v1) (V c main_v7) (V c main_v5)) := by
  show (cfg1.win 5).cut (grid1.coords t) ((dat1 V c).after 5 t) = _
  rw [after1_5]
  unfold out1_5
  rw [View.canon_unit_zero hz2]
  simp only [View.ld_unit_zero (S := S512x1152) hz2, View.ld_unit_zero (S := S128x512) hz2, View.ld_unit_zero (S := S128x1) hz2,
    View.ld_unit_zero (S := S1x1) hz2]
  funext j
  obtain ⟨cc, s, rfl⟩ : ∃ (cc : Fin 512) (s : Fin 1152), j = ix2 cc s := ⟨j 0, j 1, eq_ix2 j⟩
  obtain ⟨-, -, -, -, -, -, -, -, -, -, e10, e11⟩ := idx_facts t
  have hemb : ((cfg1.win 5).blk t).view.emb (ix2 cc s) = ix2 cc (pos (chunk t) s) := by
    funext a; apply Fin.ext
    match a with
    | ⟨0, _⟩ => show win1_5.index t (0 : Fin 2) * 512 + 1 * cc.val = cc.val; rw [e10]; omega
    | ⟨1, _⟩ => show win1_5.index t (1 : Fin 2) * 1152 + 1 * s.val = t.val * 1152 + s.val; rw [e11]; omega
  show k1_pay1 (iblk1 V c 0 t) (iblk1 V c 1 t) (iblk1 V c 2 t) (iblk1 V c 3 t) (iblk1 V c 4 t) (ix2 cc s)
    = outArr (V c main_v0) (V c main_arg1) (V c main_v1) (V c main_v7) (V c main_v5) (((cfg1.win 5).blk t).view.emb (ix2 cc s))
  rw [hemb]
  refine (mixed_payload (iblk1 V c 0 t) (iblk1 V c 1 t) (iblk1 V c 2 t) (iblk1 V c 3 t) (iblk1 V c 4 t) cc s).trans ?_
  refine Eq.trans ?_ (outArr_apply (V c main_v0) (V c main_arg1) (V c main_v1) (V c main_v7) (V c main_v5) cc (pos (chunk t) s)).symm
  refine congrArg₂ (· + ·) (x_block V c t cc s) (congrArg₂ (· * ·) (Finset.sum_congr rfl fun h _ => ?_) (s_block V c t))
  refine (mul_comm _ _).trans (congrArg₂ (· * ·) (congrArg₂ (· + ·) (Finset.sum_congr rfl fun k _ => ?_) (b_block V c t h 0)) (m_block V c t h cc))
  exact congrArg₂ (· * ·) (w_block V c t h k) (x_block V c t k s)

/-- An index of the output is in point t's block iff each coordinate is in the block's range on its axis. -/
theorem mem_blk (t : Fin cfg1.N) (i : S512x10368.Idx) :
    i ∈ ((cfg1.win 5).blk t).view.set ↔ ∀ a : Fin 2, win1_5.index t a * S512x1152.size a ≤ (i a).val ∧ (i a).val < win1_5.index t a * S512x1152.size a + S512x1152.size a := by
  show i ∈ ((View.whole main_v8).slice (win1_5.rect t)).set ↔ _
  rw [View.set_slice_whole, Rect.mem_set_unit]
  exact Iff.rfl

/-- The output array after the call (column n is written by point n / 1152, and the nine column blocks tile the array). -/
theorem final (c : Dev nD) : (dat1 V c).arrAt 5 cfg1.N
    = outArr (V c main_v0) (V c main_arg1) (V c main_v1) (V c main_v7) (V c main_v5) :=
  (dat1 V c).arrAt_eq_of_cover 5 _ (fun t _ => flushed_eq V c t) fun i => by
    have h0 : (i 0).val < 512 := (i 0).isLt
    have h1 : (i 1).val < 10368 := (i 1).isLt
    have hq : (i 1).val / 1152 < 9 := by omega
    refine ⟨Fin.cast N_1.symm ⟨(i 1).val / 1152, hq⟩, flush1_5 _, ?_⟩
    rw [mem_blk]
    obtain ⟨-, -, -, -, -, -, -, -, -, -, e10, e11⟩ := idx_facts (Fin.cast N_1.symm ⟨(i 1).val / 1152, hq⟩)
    have e11' : win1_5.index (Fin.cast N_1.symm ⟨(i 1).val / 1152, hq⟩) (1 : Fin 2) = (i 1).val / 1152 := e11
    intro a
    match a with
    | ⟨0, _⟩ => show win1_5.index _ (0 : Fin 2) * 512 ≤ (i 0).val ∧ (i 0).val < win1_5.index _ (0 : Fin 2) * 512 + 512; rw [e10]; omega
    | ⟨1, _⟩ => show win1_5.index _ (1 : Fin 2) * 1152 ≤ (i 1).val ∧ (i 1).val < win1_5.index _ (1 : Fin 2) * 1152 + 1152; rw [e11']; omega

end Cert.KernelIdeal.SecondCall

end
-- ==== Proof.Boundaries.lean ====
/-
  The buffer contents at the boundaries between the program's five stretches, walked back to the argument arrays.

  Before the first pallas_call the host has reshaped the input to [512,10368], the two biases to [128,1] columns and
  computed the scale agg / 10368 as a [1,1] array. The first call leaves the nine chunk summaries in its output and
  changes nothing else it is given; the host sums them over the slot axis from zero; the second call leaves the result in
  its [512,10368] output; the host reshapes that to the five-axis layout.
-/
import proofs.«114354_j57260503990846_2_alg».proof.Proof.KernelRun
import proofs.«114354_j57260503990846_2_alg».proof.Proof.FirstCall
import proofs.«114354_j57260503990846_2_alg».proof.Proof.SecondCall
import Idealize.ShloMosaic.Lib.StableHlo.Run

set_option maxRecDepth 16384

noncomputable section

namespace Cert.KernelIdeal.Boundary

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## Entering the first call -/

/-- The input, as the first call finds it: the five-axis argument as a [512,10368] matrix. -/
theorem x_at1 (c : Dev nD) : V1 m ρ c main_v0
    = shapeCast S512x10368 (m ((c : Thread nD τ).loc main_arg0)) shapeCasts_S1x512x18x24x24_S512x10368 := by
  show StableHlo.after hostOps0 (W0 m ρ c) (Proc.devRef .tc main_v0) = _
  dsimp only [hostOps0]
  after_results <;> rfl

/-- The key weight, untouched. -/
theorem wj_at1 (c : Dev nD) : V1 m ρ c main_arg3 = m ((c : Thread nD τ).loc main_arg3) := by
  show StableHlo.after hostOps0 (W0 m ρ c) (Proc.devRef .tc main_arg3) = _
  dsimp only [hostOps0]
  after_results <;> rfl

/-- The key bias as a column. -/
theorem bj_at1 (c : Dev nD) : V1 m ρ c main_v2
    = shapeCast S128x1 (m ((c : Thread nD τ).loc main_arg4)) shapeCasts_S128_S128x1 := by
  show StableHlo.after hostOps0 (W0 m ρ c) (Proc.devRef .tc main_v2) = _
  dsimp only [hostOps0]
  after_results <;> rfl

/-! ## Leaving the first call -/

/-- The first call's output holds the nine chunk summaries of the input, the key weight and the key bias column. -/
theorem partials_at2 (c : Dev nD) : W2 m ρ c (Proc.devRef .tc main_v6)
    = FirstCall.partials (shapeCast S512x10368 (m ((c : Thread nD τ).loc main_arg0)) shapeCasts_S1x512x18x24x24_S512x10368)
        (m ((c : Thread nD τ).loc main_arg3)) (shapeCast S128x1 (m ((c : Thread nD τ).loc main_arg4)) shapeCasts_S128_S128x1) := by
  refine ((W2_arr m ρ c 3).trans (FirstCall.final (V1 m ρ) c)).trans ?_
  rw [x_at1, wj_at1, bj_at1]

/-! ## Entering the second call -/

/-- The input again: the first call only read it, and the host's sum does not write it. -/
theorem x_at3 (c : Dev nD) : V3 m ρ c main_v0
    = shapeCast S512x10368 (m ((c : Thread nD τ).loc main_arg0)) shapeCasts_S1x512x18x24x24_S512x10368 := by
  have e : V3 m ρ c main_v0 = W2 m ρ c (Proc.devRef .tc main_v0) := by
    show StableHlo.after hostOps1 (W2 m ρ c) (Proc.devRef .tc main_v0) = _
    dsimp only [hostOps1]
    after_results <;> rfl
  exact (e.trans ((W2_arr m ρ c 0).trans (((dat0 (V1 m ρ) c).arrAt_in 0 rfl _).trans (A_eq0 (V1 m ρ) c 0)))).trans (x_at1 m ρ c)

/-- The query weight, untouched since launch. -/
theorem wi_at3 (c : Dev nD) : V3 m ρ c main_arg1 = m ((c : Thread nD τ).loc main_arg1) := by
  have e : V3 m ρ c main_arg1 = W2 m ρ c (Proc.devRef .tc main_arg1) := by
    show StableHlo.after hostOps1 (W2 m ρ c) (Proc.devRef .tc main_arg1) = _
    dsimp only [hostOps1]
    after_results <;> rfl
  refine (e.trans (W2_of_ne m ρ c main_arg1 (by decide))).trans ?_
  show StableHlo.after hostOps0 (W0 m ρ c) (Proc.devRef .tc main_arg1) = _
  dsimp only [hostOps0]
  after_results <;> rfl

/-- The query bias as a column. -/
theorem bi_at3 (c : Dev nD) : V3 m ρ c main_v1
    = shapeCast S128x1 (m ((c : Thread nD τ).loc main_arg2)) shapeCasts_S128_S128x1 := by
  have e : V3 m ρ c main_v1 = W2 m ρ c (Proc.devRef .tc main_v1) := by
    show StableHlo.after hostOps1 (W2 m ρ c) (Proc.devRef .tc main_v1) = _
    dsimp only [hostOps1]
    after_results <;> rfl
  refine (e.trans (W2_of_ne m ρ c main_v1 (by decide))).trans ?_
  show StableHlo.after hostOps0 (W0 m ρ c) (Proc.devRef .tc main_v1) = _
  dsimp only [hostOps0]
  after_results <;> rfl

/-- The scale as the host computed it: the one entry of agg divided by 10368, as a [1,1] array. -/
theorem scale_at3 (c : Dev nD) : V3 m ρ c main_v5
    = shapeCast S1x1 (Host.divf (F := Ideal) (shapeCast S_ (m ((c : Thread nD τ).loc main_arg5)) shapeCasts_S1x1_S_)
        (constant (F := Ideal) S_ .f32 0x46220000#32)) shapeCasts_S_S1x1 := by
  have e : V3 m ρ c main_v5 = W2 m ρ c (Proc.devRef .tc main_v5) := by
    show StableHlo.after hostOps1 (W2 m ρ c) (Proc.devRef .tc main_v5) = _
    dsimp only [hostOps1]
    after_results <;> rfl
  refine (e.trans (W2_of_ne m ρ c main_v5 (by decide))).trans ?_
  show StableHlo.after hostOps0 (W0 m ρ c) (Proc.devRef .tc main_v5) = _
  dsimp only [hostOps0]
  after_results <;> rfl

/-- The summary the second call reads: the host's sum, from zero, of the nine chunk summaries over the slot axis. -/
theorem summed_at3 (c : Dev nD) : V3 m ρ c main_v7
    = Host.reduceAdd (F := Ideal)
        (FirstCall.partials (shapeCast S512x10368 (m ((c : Thread nD τ).loc main_arg0)) shapeCasts_S1x512x18x24x24_S512x10368)
          (m ((c : Thread nD τ).loc main_arg3)) (shapeCast S128x1 (m ((c : Thread nD τ).loc main_arg4)) shapeCasts_S128_S128x1))
        (constant (F := Ideal) S_ .f32 0x00000000#32) reducesTo_S9x128x512_S128x512_d0 h_S_ := by
  have e : V3 m ρ c main_v7 = Host.reduceAdd (F := Ideal) (W2 m ρ c (Proc.devRef .tc main_v6))
      (constant (F := Ideal) S_ .f32 0x00000000#32) reducesTo_S9x128x512_S128x512_d0 h_S_ := by
    show StableHlo.after hostOps1 (W2 m ρ c) (Proc.devRef .tc main_v7) = _
    dsimp only [hostOps1]
    after_results <;> rfl
  rw [e, partials_at2]

/-! ## The result -/

/-- The kernel program's result as one function of its six argument arrays: the second call's output from the reshaped
    input, the query weight and bias column, the host's sum of the first call's nine chunk summaries, and the scale. -/
def resultOf (x0 : S1x512x18x24x24.Idx → EReal) (x1 : S128x512.Idx → EReal) (x2 : S128.Idx → EReal)
    (x3 : S128x512.Idx → EReal) (x4 : S128.Idx → EReal) (x5 : S1x1.Idx → EReal) : S1x512x18x24x24.Idx → EReal :=
  shapeCast S1x512x18x24x24
    (SecondCall.outArr (shapeCast S512x10368 x0 shapeCasts_S1x512x18x24x24_S512x10368) x1
      (shapeCast S128x1 x2 shapeCasts_S128_S128x1)
      (Host.reduceAdd (F := Ideal)
        (FirstCall.partials (shapeCast S512x10368 x0 shapeCasts_S1x512x18x24x24_S512x10368) x3 (shapeCast S128x1 x4 shapeCasts_S128_S128x1))
        (constant (F := Ideal) S_ .f32 0x00000000#32) reducesTo_S9x128x512_S128x512_d0 h_S_)
      (shapeCast S1x1 (Host.divf (F := Ideal) (shapeCast S_ x5 shapeCasts_S1x1_S_) (constant (F := Ideal) S_ .f32 0x46220000#32)) shapeCasts_S_S1x1))
    shapeCasts_S512x10368_S1x512x18x24x24

/-- The result buffer at the end: the second call's output, from the arrays above, in the five-axis layout. -/
theorem result_eq (c : Dev nD) : W5 m ρ c (Proc.devRef .tc main_v9)
    = shapeCast S1x512x18x24x24
        (SecondCall.outArr (shapeCast S512x10368 (m ((c : Thread nD τ).loc main_arg0)) shapeCasts_S1x512x18x24x24_S512x10368)
          (m ((c : Thread nD τ).loc main_arg1))
          (shapeCast S128x1 (m ((c : Thread nD τ).loc main_arg2)) shapeCasts_S128_S128x1)
          (Host.reduceAdd (F := Ideal)
            (FirstCall.partials (shapeCast S512x10368 (m ((c : Thread nD τ).loc main_arg0)) shapeCasts_S1x512x18x24x24_S512x10368)
              (m ((c : Thread nD τ).loc main_arg3)) (shapeCast S128x1 (m ((c : Thread nD τ).loc main_arg4)) shapeCasts_S128_S128x1))
            (constant (F := Ideal) S_ .f32 0x00000000#32) reducesTo_S9x128x512_S128x512_d0 h_S_)
          (shapeCast S1x1 (Host.divf (F := Ideal) (shapeCast S_ (m ((c : Thread nD τ).loc main_arg5)) shapeCasts_S1x1_S_)
            (constant (F := Ideal) S_ .f32 0x46220000#32)) shapeCasts_S_S1x1))
        shapeCasts_S512x10368_S1x512x18x24x24 := by
  have e : W5 m ρ c (Proc.devRef .tc main_v9)
      = shapeCast S1x512x18x24x24 (W4 m ρ c (Proc.devRef .tc main_v8)) shapeCasts_S512x10368_S1x512x18x24x24 := by
    show StableHlo.after hostOps2 (W4 m ρ c) (Proc.devRef .tc main_v9) = _
    dsimp only [hostOps2]
    after_results <;> rfl
  have e8 : W4 m ρ c (Proc.devRef .tc main_v8)
      = SecondCall.outArr (V3 m ρ c main_v0) (V3 m ρ c main_arg1) (V3 m ρ c main_v1) (V3 m ρ c main_v7) (V3 m ρ c main_v5) :=
    (W4_arr m ρ c 5).trans (SecondCall.final (V3 m ρ) c)
  rw [e, e8, x_at3, wi_at3, bi_at3, summed_at3, scale_at3]

/-- The same, with the function named. -/
theorem result_eq' (c : Dev nD) : W5 m ρ c (Proc.devRef .tc main_v9)
    = resultOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  result_eq m ρ c

end Cert.KernelIdeal.Boundary

end
-- ==== Proof.RefStages.lean ====
/-
  The reference's result, read stage by stage at coordinates.

  With X the input as a [512,10368] matrix: the two biased projections fi = Wi X + bi and fj = Wj X + bj, the summary
  M = fj X^T over all 10368 positions, the [10368,512] product fi^T M scaled by s = agg / 10368, transposed back and
  added to the input in its five-axis layout.
-/
import proofs.«114354_j57260503990846_2_alg».proof.Proof.Gen.ReferenceIdeal.Read
import proofs.«114354_j57260503990846_2_alg».proof.Proof.Summary

noncomputable section

namespace Cert.ReferenceIdeal.Stages

open Idealize.ShloMosaic Idealize.ShloMosaic.ValueIdx Cert.ReferenceIdeal Cert.ReferenceIdeal.Read Cert.Summary

variable (x0 : (⟨S1x512x18x24x24, .f32⟩ : BufTy).Contents (Elt Ideal))
  (x1 x3 : (⟨S128x512, .f32⟩ : BufTy).Contents (Elt Ideal)) (x2 x4 : (⟨S128, .f32⟩ : BufTy).Contents (Elt Ideal))
  (x5 : (⟨S1x1, .f32⟩ : BufTy).Contents (Elt Ideal))

/-- A length-128 array read by its coordinate. -/
def vec (b : (⟨S128, .f32⟩ : BufTy).Contents (Elt Ideal)) : Fin 128 → EReal := fun h => b (ix1 h)

/-- The input as a matrix: channels by positions. -/
def X : Mat 512 10368 := mat (val_main_v0 (F := Ideal) x0)

/-- The query projection with bias, entry (h, n). -/
theorem queries_apply (h : Fin 128) (n : Fin 10368) :
    val_main_v4 (F := Ideal) x0 x1 x2 (ix2 h n) = proj (mat x1) (vec x2) (X x0) h n := by
  rw [val_main_v4_apply, val_main_v1_apply, val_main_v3_apply, val_main_v2_apply]
  have el : ∀ k : Fin 512, lidx_main_v1 (ix2 h n) k = ix2 h k := fun k => funext fun a => Fin.ext (by
    match a with | ⟨0, _⟩ => rfl | ⟨1, _⟩ => rfl)
  have er : ∀ k : Fin 512, ridx_main_v1 (ix2 h n) k = ix2 k n := fun k => funext fun a => Fin.ext (by
    match a with | ⟨0, _⟩ => rfl | ⟨1, _⟩ => rfl)
  have eb : idx_main_v2 (idx_main_v3 (ix2 h n)) = ix1 h := funext fun a => Fin.ext (by
    match a with | ⟨0, _⟩ => rfl)
  simp only [el, er, eb]
  rfl

/-- The key projection with bias, entry (h, n). -/
theorem keys_apply (h : Fin 128) (n : Fin 10368) :
    val_main_v9 (F := Ideal) x0 x3 x4 (ix2 h n) = proj (mat x3) (vec x4) (X x0) h n := by
  rw [val_main_v9_apply, val_main_v6_apply, val_main_v8_apply, val_main_v7_apply]
  have el : ∀ k : Fin 512, lidx_main_v6 (ix2 h n) k = ix2 h k := fun k => funext fun a => Fin.ext (by
    match a with | ⟨0, _⟩ => rfl | ⟨1, _⟩ => rfl)
  have er : ∀ k : Fin 512, ridx_main_v6 (ix2 h n) k = ix2 k n := fun k => funext fun a => Fin.ext (by
    match a with | ⟨0, _⟩ => rfl | ⟨1, _⟩ => rfl)
  have eb : idx_main_v7 (idx_main_v8 (ix2 h n)) = ix1 h := funext fun a => Fin.ext (by
    match a with | ⟨0, _⟩ => rfl)
  simp only [el, er, eb]
  rfl

/-- The summary over all positions, entry (h, c). -/
theorem summary_apply (h : Fin 128) (c : Fin 512) :
    val_main_v13 (F := Ideal) x0 x3 x4 (ix2 h c) = summary (proj (mat x3) (vec x4) (X x0)) (X x0) h c := by
  rw [val_main_v13_apply]
  refine Finset.sum_congr rfl fun n _ => ?_
  have el : lidx_main_v13 (ix2 h c) n = ix2 h n := funext fun a => Fin.ext (by
    match a with | ⟨0, _⟩ => rfl | ⟨1, _⟩ => rfl)
  have er : idx_main_v10 (ridx_main_v13 (ix2 h c) n) = ix2 c n := funext fun a => Fin.ext (by
    match a with | ⟨0, _⟩ => rfl | ⟨1, _⟩ => rfl)
  rw [el, keys_apply, val_main_v10_apply, er]
  rfl

/-- The scale: the one entry of agg divided by the number of positions. -/
def scale : EReal := val_main_v12 (F := Ideal) x5 ix0

/-- The scaled product, transposed back to channels by positions, entry (c, n). -/
theorem product_apply (c : Fin 512) (n : Fin 10368) :
    val_main_v17 (F := Ideal) x0 x1 x2 x3 x4 x5 (ix2 c n)
      = (∑ h : Fin 128, proj (mat x1) (vec x2) (X x0) h n * summary (proj (mat x3) (vec x4) (X x0)) (X x0) h c) * scale x5 := by
  rw [val_main_v17_apply]
  have e17 : idx_main_v17 (ix2 c n) = ix2 n c := funext fun a => Fin.ext (by
    match a with | ⟨0, _⟩ => rfl | ⟨1, _⟩ => rfl)
  rw [e17, val_main_v16_apply, val_main_v14_apply, val_main_v15_apply]
  have e15 : idx_main_v15 (ix2 n c) = ix0 := rfl
  rw [e15]
  refine congrArg (· * scale x5) (Finset.sum_congr rfl fun h _ => ?_)
  have el : idx_main_v5 (lidx_main_v14 (ix2 n c) h) = ix2 h n := funext fun a => Fin.ext (by
    match a with | ⟨0, _⟩ => rfl | ⟨1, _⟩ => rfl)
  have er : ridx_main_v14 (ix2 n c) h = ix2 h c := funext fun a => Fin.ext (by
    match a with | ⟨0, _⟩ => rfl | ⟨1, _⟩ => rfl)
  rw [val_main_v5_apply, el, er, queries_apply, summary_apply]

end Cert.ReferenceIdeal.Stages

end
-- ==== Proof.Bridge.lean ====
/-
  The two programs compute one function of the six arguments.

  Entry by entry, with X the input as a [512,10368] matrix: the kernel's result at (c, n) is
  X(c, n) + (sum over h of fi(h, n) * M'(h, c)) * s with M' the sum from zero of the nine chunk summaries; the
  reference's is X(c, n) + (sum over h of fi(h, n) * M(h, c)) * s with M the summary over all positions. The nine chunks
  partition the positions, so M' = M; products commute; the scale s is the same quotient on both sides; and the
  reshape between the five-axis layout and [512,10368] commutes with the entrywise sum.
-/
import proofs.«114354_j57260503990846_2_alg».proof.Proof.Boundaries
import proofs.«114354_j57260503990846_2_alg».proof.Proof.RefStages
import Idealize.ShloMosaic.Lib.IdealHost

noncomputable section

namespace Cert.Bridge

open Idealize.ShloMosaic Idealize.ShloMosaic.ValueIdx Cert.KernelIdeal Cert.KernelIdeal.Gen Cert.Summary
open Cert.KernelIdeal.Boundary (resultOf)

variable (x0 : S1x512x18x24x24.Idx → EReal) (x1 : S128x512.Idx → EReal) (x2 : S128.Idx → EReal) (x3 : S128x512.Idx → EReal)
  (x4 : S128.Idx → EReal) (x5 : S1x1.Idx → EReal)

/-- A reshape of an entrywise sum whose first term is itself a reshape there: the sum of the original and the reshape
    of the second term. -/
theorem shapeCast_add_back {s t : Shape} (x : s.Idx → EReal) (Y : t.Idx → EReal) (h : s.ShapeCasts t) (h' : t.ShapeCasts s) :
    shapeCast s (fun j => shapeCast t x h j + Y j) h' = fun i => x i + shapeCast s Y h' i := by
  funext i
  show shapeCast s (shapeCast t x h) h' i + shapeCast s Y h' i = _
  rw [shapeCast_shapeCast]

/-- The scale: the kernel reads entry (0, 0) of the quotient reshaped to [1,1]; the reference reads the quotient's one
    entry. -/
theorem scale_eq :
    shapeCast S1x1 (Host.divf (F := Ideal) (shapeCast S_ x5 shapeCasts_S1x1_S_) (constant (F := Ideal) S_ .f32 0x46220000#32))
        shapeCasts_S_S1x1 (ix2 (0 : Fin 1) (0 : Fin 1))
      = Cert.ReferenceIdeal.Stages.scale x5 := by
  unfold shapeCast
  exact congrArg _ (eq_ix0 _)

/-- The summed chunk summaries are the summary over all positions. -/
theorem summed_eq (h : Fin 128) (c : Fin 512) :
    Host.reduceAdd (F := Ideal)
        (FirstCall.partials (shapeCast S512x10368 x0 shapeCasts_S1x512x18x24x24_S512x10368) x3 (shapeCast S128x1 x4 shapeCasts_S128_S128x1))
        (constant (F := Ideal) S_ .f32 0x00000000#32) reducesTo_S9x128x512_S128x512_d0 h_S_ (ix2 h c)
      = summary (proj (mat x3) (Cert.ReferenceIdeal.Stages.vec x4) (Cert.ReferenceIdeal.Stages.X x0)) (Cert.ReferenceIdeal.Stages.X x0) h c := by
  have hR : S9x128x512.Reduces [0] S128x512 := by decide
  rw [hostReduceAdd_apply, Ideal.hostReduceAdd_single reducesTo_S9x128x512_S128x512_d0 hR, summary_eq_chunks]
  show Ideal.ofBits .f32 0x00000000#32 + _ = _
  rw [Ideal.ofBits_zero_f32, zero_add]
  refine Finset.sum_congr rfl fun i _ => ?_
  have el : hR.lift (ix2 h c) i = ix3 i h c := funext fun a => Fin.ext (by
    match a with | ⟨0, _⟩ => rfl | ⟨1, _⟩ => rfl | ⟨2, _⟩ => rfl)
  rw [el]
  show chunkSummary (proj (mat x3) (fun h => shapeCast S128x1 x4 shapeCasts_S128_S128x1 (ix2 h (0 : Fin 1))) _) _ i h c = _
  have eb : (fun h : Fin 128 => shapeCast S128x1 x4 shapeCasts_S128_S128x1 (ix2 h (0 : Fin 1))) = Cert.ReferenceIdeal.Stages.vec x4 :=
    funext fun h => Cert.Column.shapeCast_a_a1_apply x4 shapeCasts_S128_S128x1 h 0
  rw [eb]
  rfl

/-- Entry (c, n) of the second call's output is the input's entry plus the reference's scaled product there. -/
theorem out_apply (c : Fin 512) (n : Fin 10368) :
    SecondCall.outArr (shapeCast S512x10368 x0 shapeCasts_S1x512x18x24x24_S512x10368) x1
        (shapeCast S128x1 x2 shapeCasts_S128_S128x1)
        (Host.reduceAdd (F := Ideal)
          (FirstCall.partials (shapeCast S512x10368 x0 shapeCasts_S1x512x18x24x24_S512x10368) x3 (shapeCast S128x1 x4 shapeCasts_S128_S128x1))
          (constant (F := Ideal) S_ .f32 0x00000000#32) reducesTo_S9x128x512_S128x512_d0 h_S_)
        (shapeCast S1x1 (Host.divf (F := Ideal) (shapeCast S_ x5 shapeCasts_S1x1_S_) (constant (F := Ideal) S_ .f32 0x46220000#32)) shapeCasts_S_S1x1)
        (ix2 c n)
      = shapeCast S512x10368 x0 shapeCasts_S1x512x18x24x24_S512x10368 (ix2 c n)
        + Cert.ReferenceIdeal.Read.val_main_v17 (F := Ideal) x0 x1 x2 x3 x4 x5 (ix2 c n) := by
  rw [SecondCall.outArr_apply, Cert.ReferenceIdeal.Stages.product_apply]
  refine congrArg (shapeCast S512x10368 x0 shapeCasts_S1x512x18x24x24_S512x10368 (ix2 c n) + ·) ?_
  refine congrArg₂ (· * ·) (Finset.sum_congr rfl fun h _ => ?_) (scale_eq x5)
  refine congrArg₂ (· * ·) ?_ (summed_eq x0 x3 x4 h c)
  rw [Cert.Column.shapeCast_a_a1_apply]
  rfl

/-- The kernel program's result function is the reference's last stage. -/
theorem result_eq_reference :
    resultOf x0 x1 x2 x3 x4 x5 = Cert.ReferenceIdeal.Read.val_main_v19 (F := Ideal) x0 x1 x2 x3 x4 x5 := by
  have e : SecondCall.outArr (shapeCast S512x10368 x0 shapeCasts_S1x512x18x24x24_S512x10368) x1
        (shapeCast S128x1 x2 shapeCasts_S128_S128x1)
        (Host.reduceAdd (F := Ideal)
          (FirstCall.partials (shapeCast S512x10368 x0 shapeCasts_S1x512x18x24x24_S512x10368) x3 (shapeCast S128x1 x4 shapeCasts_S128_S128x1))
          (constant (F := Ideal) S_ .f32 0x00000000#32) reducesTo_S9x128x512_S128x512_d0 h_S_)
        (shapeCast S1x1 (Host.divf (F := Ideal) (shapeCast S_ x5 shapeCasts_S1x1_S_) (constant (F := Ideal) S_ .f32 0x46220000#32)) shapeCasts_S_S1x1)
      = fun j => shapeCast S512x10368 x0 shapeCasts_S1x512x18x24x24_S512x10368 j
          + Cert.ReferenceIdeal.Read.val_main_v17 (F := Ideal) x0 x1 x2 x3 x4 x5 j := by
    funext j
    rw [eq_ix2 j]
    exact out_apply x0 x1 x2 x3 x4 x5 (j 0) (j 1)
  unfold resultOf
  rw [e, shapeCast_add_back]
  rfl

end Cert.Bridge

end
-- ==== Proof.lean ====
/-
  The certificate's five claims.

  The kernel program and the reference both compute, from a [1,512,18,24,24] input X (read as 512 channels by 10368
  positions), two [128,512] weights with [128] biases and a [1,1] factor agg,
      X + (fi^T (fj X^T))^T * (agg / 10368),   fi = Wi X + bi,   fj = Wj X + bj.
  The reference forms the [128,512] summary fj X^T in one sum over the 10368 positions; the kernel's first pallas_call
  forms it chunk by chunk (nine chunks of 1152 positions, one grid point each), the host adds the nine partial sums, and
  the second pallas_call applies the summary to the projected queries, scales, and adds the input, again chunk by chunk.
  Over the extended reals a sum may be regrouped and a product commuted freely, so the two results agree entry by entry
  on every input; the finiteness precondition is not used. The kernel's roundings to bf16 before each product are the
  identity at the ideal values, and the idealization rewrote nothing, so the preservation claim is trivial.
  The three frames are the generated ones (the reference's: its generated run with the result dropped).
-/
import proofs.«114354_j57260503990846_2_alg».proof.Defs
import proofs.«114354_j57260503990846_2_alg».proof.Proof.Gen.Kernel
import proofs.«114354_j57260503990846_2_alg».proof.Proof.Gen.Kernel.Frame
import proofs.«114354_j57260503990846_2_alg».proof.Proof.Gen.KernelIdeal
import proofs.«114354_j57260503990846_2_alg».proof.Proof.Gen.KernelIdeal.Frame
import proofs.«114354_j57260503990846_2_alg».proof.Proof.Gen.ReferenceIdeal
import proofs.«114354_j57260503990846_2_alg».proof.Proof.Gen.ReferenceIdeal.Run
import proofs.«114354_j57260503990846_2_alg».proof.Proof.Gen.ReferenceIdeal.Read
import proofs.«114354_j57260503990846_2_alg».proof.Proof.Gen.Pre_finite_inputs
import proofs.«114354_j57260503990846_2_alg».proof.Proof.Boundaries
import proofs.«114354_j57260503990846_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both idealized programs end with the result buffer at one function of the six arguments: the kernel program by its
    run read back through its five stretches, the reference by its generated run, the two functions equal entry by entry. -/
theorem algebraic : Cert.algebraic_KernelIdeal_ReferenceIdeal := by
  intro m ρ m' ρ' _ hagree
  refine ⟨fun c => Cert.KernelIdeal.Boundary.resultOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.result_eq' m ρ c), (h c).2⟩)
      (Cert.KernelIdeal.Boundary.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5⟩ := hagree c
    rw [a0, a1, a2, a3, a4, a5]
    exact (Cert.ReferenceIdeal.Read.val_main_v19_eq (F := Ideal) _ _ _ _ _ _).trans (Cert.Bridge.result_eq_reference _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
